-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S5000x128 : Shape := ⟨2, ![5000, 128]⟩
abbrev S5000x1 : Shape := ⟨2, ![5000, 1]⟩
abbrev S740000x128 : Shape := ⟨2, ![740000, 128]⟩
abbrev S1x128 : Shape := ⟨2, ![1, 128]⟩

abbrev nBuf : Space → Nat
  | .hbm => 42
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x640000, .i32⟩
  | .hbm, ⟨6, _⟩ => ⟨S640000, .i32⟩
  | .hbm, ⟨7, _⟩ => ⟨S740000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S_, .f32⟩
  | .hbm, ⟨12, _⟩ => ⟨S740000, .f32⟩
  | .hbm, ⟨13, _⟩ => ⟨S_, .f32⟩
  | .hbm, ⟨14, _⟩ => ⟨S100000, .f32⟩
  | .hbm, ⟨15, _⟩ => ⟨S740000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000x128, .f32⟩
  | .hbm, ⟨36, _⟩ => ⟨S_, .f32⟩
  | .hbm, ⟨37, _⟩ => ⟨S100000x128, .f32⟩
  | .hbm, ⟨38, _⟩ => ⟨S740000x1, .i32⟩
  | .hbm, ⟨39, _⟩ => ⟨S100000x128, .f32⟩
  | .hbm, ⟨40, _⟩ => ⟨S1x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S740000x1_S740000_n_0_0_1_wf : ScatterDims.WF S100000 S740000x1 S740000 [] [0] [0] 1
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x640000, .i32⟩
  | .hbm, ⟨6, _⟩ => ⟨S640000, .i32⟩
  | .hbm, ⟨7, _⟩ => ⟨S740000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S_, .f32⟩
  | .hbm, ⟨12, _⟩ => ⟨S740000, .f32⟩
  | .hbm, ⟨13, _⟩ => ⟨S_, .f32⟩
  | .hbm, ⟨14, _⟩ => ⟨S100000, .f32⟩
  | .hbm, ⟨15, _⟩ => ⟨S740000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S740000, .i32⟩
  | .hbm, ⟨27, _⟩ => ⟨S740000, .i1⟩
  | .hbm, ⟨28, _⟩ => ⟨S_, .i32⟩
  | .hbm, ⟨29, _⟩ => ⟨S740000, .i32⟩
  | .hbm, ⟨30, _⟩ => ⟨S740000, .i32⟩
  | .hbm, ⟨31, _⟩ => ⟨S740000, .i32⟩
  | .hbm, ⟨32, _⟩ => ⟨S740000x1, .i32⟩
  | .hbm, ⟨33, _⟩ => ⟨S740000, .f32⟩
  | .hbm, ⟨34, _⟩ => ⟨S_, .i32⟩
  | .hbm, ⟨35, _⟩ => ⟨S740000, .i32⟩
  | .hbm, ⟨36, _⟩ => ⟨S740000, .i1⟩
  | .hbm, ⟨37, _⟩ => ⟨S_, .i32⟩
  | .hbm, ⟨38, _⟩ => ⟨S740000, .i32⟩
  | .hbm, ⟨39, _⟩ => ⟨S740000, .i32⟩
  | .hbm, ⟨40, _⟩ => ⟨S740000, .i32⟩
  | .hbm, ⟨41, _⟩ => ⟨S740000x1, .i32⟩
  | .hbm, ⟨42, _⟩ => ⟨S740000, .f32⟩
  | .hbm, ⟨43, _⟩ => ⟨S740000, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S740000, .i32⟩
  | .hbm, ⟨48, _⟩ => ⟨S740000, .i1⟩
  | .hbm, ⟨49, _⟩ => ⟨S_, .i32⟩
  | .hbm, ⟨50, _⟩ => ⟨S740000, .i32⟩
  | .hbm, ⟨51, _⟩ => ⟨S740000, .i32⟩
  | .hbm, ⟨52, _⟩ => ⟨S740000, .i32⟩
  | .hbm, ⟨53, _⟩ => ⟨S740000x1, .i32⟩
  | .hbm, ⟨54, _⟩ => ⟨S740000x128, .f32⟩
  | .hbm, ⟨55, _⟩ => ⟨S740000x1, .f32⟩
  | .hbm, ⟨56, _⟩ => ⟨S740000x128, .f32⟩
  | .hbm, ⟨57, _⟩ => ⟨S740000x128, .f32⟩
  | .hbm, ⟨58, _⟩ => ⟨S_, .f32⟩
  | .hbm, ⟨59, _⟩ => ⟨S100000x128, .f32⟩
  | .hbm, ⟨60, _⟩ => ⟨S740000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  transposes_S128x128_S128x128_1_0 : S128x128.Transposes [1, 0] S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.KernelRun.lean ====
/-
  The kernel program's run with its RESULT read. The program is two pipelined regions among four stretches of host
  operations; the buffer contents at each boundary are a fold from the launch memory (`Gen.W0` … `Gen.W6`), and after the
  last region every unscoped buffer of a core holds `Gen.W6` of it. The frame theorem reads the four argument buffers off
  that last state; here the same launch over the same segments also reads the result buffer: every weakly fair execution
  terminates, the result array holds `W6` at its buffer, and the arguments are as launched. What `W6` holds there — the
  second region's output array — is opened in KernelValue.lean.
-/
import proofs.«155059_j7945689497634_2_alg».proof.Proof.Gen.KernelIdeal.Frame

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates without a fault; the result
    buffer ends at the last boundary's contents and the four arguments end as launched. -/
theorem run_W6 : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.GcnRun

end
-- ==== Proof.GcnSpec.lean ====
/-
  The two dense stages of the graph convolution as whole-array functions on the extended reals, index by index.
  With N = 100000 nodes and 128 features:
    scaledLinear x W dv   at (n, o)  =  (sum over k of x(n, k) * W(o, k)) * dv(n, 0)     -- row n of x times W transposed, scaled by the row's factor
    scaleBiasRelu a dv b  at (n, o)  =  max (a(n, o) * dv(n, 0) + b(0, o)) 0             -- the row's factor again, the bias, the rectifier
  The first is what the first pipelined region leaves in its output array, the second what the second region leaves;
  each region writes the array 5000 rows at a time, and a block of the array is the same function read through the block.
  Library imports only.
-/
import Idealize.ShloMosaic.PureOps.Ideal
import Idealize.ShloMosaic.Lib.ValueIdx

noncomputable section

namespace Cert.GcnSpec

open Idealize.ShloMosaic Idealize.ShloMosaic.ValueIdx
open scoped BigOperators

/-- Row `n` of `x` against row `o` of `W`, times the row factor `dv(n, 0)`. -/
def scaledLinearAt (x : (⟨2, ![100000, 128]⟩ : Shape).Idx → EReal) (W : (⟨2, ![128, 128]⟩ : Shape).Idx → EReal)
    (dv : (⟨2, ![100000, 1]⟩ : Shape).Idx → EReal) (n : Fin 100000) (o : Fin 128) : EReal :=
  (∑ k : Fin 128, x (ix2 n k) * W (ix2 o k)) * dv (ix2 n (0 : Fin 1))

/-- The scaled linear map as one array. -/
def scaledLinear (x : (⟨2, ![100000, 128]⟩ : Shape).Idx → EReal) (W : (⟨2, ![128, 128]⟩ : Shape).Idx → EReal)
    (dv : (⟨2, ![100000, 1]⟩ : Shape).Idx → EReal) : (⟨2, ![100000, 128]⟩ : Shape).Idx → EReal :=
  fun i => scaledLinearAt x W dv ⟨(i 0).val, (i 0).isLt⟩ ⟨(i 1).val, (i 1).isLt⟩

theorem scaledLinear_ix2 (x : (⟨2, ![100000, 128]⟩ : Shape).Idx → EReal) (W : (⟨2, ![128, 128]⟩ : Shape).Idx → EReal)
    (dv : (⟨2, ![100000, 1]⟩ : Shape).Idx → EReal) (n : Fin 100000) (o : Fin 128) :
    scaledLinear x W dv (ix2 n o) = scaledLinearAt x W dv n o := rfl

/-- The aggregate at `(n, o)` times the row factor, plus the bias at `o`, rectified. -/
def scaleBiasReluAt (a : (⟨2, ![100000, 128]⟩ : Shape).Idx → EReal) (dv : (⟨2, ![100000, 1]⟩ : Shape).Idx → EReal)
    (b : (⟨2, ![1, 128]⟩ : Shape).Idx → EReal) (n : Fin 100000) (o : Fin 128) : EReal :=
  max (a (ix2 n o) * dv (ix2 n (0 : Fin 1)) + b (ix2 (0 : Fin 1) o)) 0

/-- The scale, bias and rectifier as one array. -/
def scaleBiasRelu (a : (⟨2, ![100000, 128]⟩ : Shape).Idx → EReal) (dv : (⟨2, ![100000, 1]⟩ : Shape).Idx → EReal)
    (b : (⟨2, ![1, 128]⟩ : Shape).Idx → EReal) : (⟨2, ![100000, 128]⟩ : Shape).Idx → EReal :=
  fun i => scaleBiasReluAt a dv b ⟨(i 0).val, (i 0).isLt⟩ ⟨(i 1).val, (i 1).isLt⟩

theorem scaleBiasRelu_ix2 (a : (⟨2, ![100000, 128]⟩ : Shape).Idx → EReal) (dv : (⟨2, ![100000, 1]⟩ : Shape).Idx → EReal)
    (b : (⟨2, ![1, 128]⟩ : Shape).Idx → EReal) (n : Fin 100000) (o : Fin 128) :
    scaleBiasRelu a dv b (ix2 n o) = scaleBiasReluAt a dv b n o := rfl

end Cert.GcnSpec

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Region0.lean ====
/-
  The first pipelined region's output array. At grid point t (20 points) the region stages rows 5000 t … 5000 t + 4999
  of x, the whole weight matrix W, and the same rows of the column of row factors; the body multiplies the block of x by
  W transposed on the matrix unit (into a zero accumulator; the narrowing to bf16 before it is the identity on the extended
  reals) and scales each row by its factor; the block is written back to the same rows of the result. Entry (r, o) of the
  product is the sum over k of x(r, k) * W(o, k). So block t of the result is block t of ONE array, `scaledLinear` of the
  three arrays as the region finds them, and the twenty blocks tile the result.
-/
import proofs.«155059_j7945689497634_2_alg».proof.Proof.Gen.KernelIdeal.Frame
import proofs.«155059_j7945689497634_2_alg».proof.Proof.GcnSpec
import proofs.«155059_j7945689497634_2_alg».proof.Proof.LibColumnLayout
import proofs.«155059_j7945689497634_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-! ## The matrix unit's dimension numbers: rows of the left operand against columns of the right, one contracted axis -/

abbrev mm := dot_S5000x128_S128x128_S5000x128_1_0_0_1_n_n

theorem mm_l0 (j : S5000x128.Idx) (q : mm.contr.Idx) : (mm.lhsIdx j q 0).val = (j 0).val := by
  unfold DotDims.lhsIdx
  rw [dif_neg (show ¬(0 : Fin S5000x128.rank) ∈ mm.lhsBatch by decide), dif_pos (show (0 : Fin S5000x128.rank) ∈ mm.lhsNonContracting by decide)]
  rfl
theorem mm_l1 (j : S5000x128.Idx) (q : mm.contr.Idx) : (mm.lhsIdx j q 1).val = (q ⟨0, by decide⟩).val :=
  mm.lhsIdx_val_of_single rfl j q
theorem mm_r0 (j : S5000x128.Idx) (q : mm.contr.Idx) : (mm.rhsIdx j q 0).val = (q ⟨0, by decide⟩).val :=
  mm.rhsIdx_val_of_single rfl j q
theorem mm_r1 (j : S5000x128.Idx) (q : mm.contr.Idx) : (mm.rhsIdx j q 1).val = (j 1).val := by
  unfold DotDims.rhsIdx
  rw [dif_neg (show ¬(1 : Fin S128x128.rank) ∈ mm.rhsBatch by decide), dif_pos (show (1 : Fin S128x128.rank) ∈ mm.rhsNonContracting by decide)]
  rfl

/-- The body's stored value at `(r, o)` of the block: row r of the x block against row o of W, times the row's factor. -/
theorem pay_apply (x0 : Vec Ideal S5000x128 .f32) (x1 : Vec Ideal S128x128 .f32) (x2 : Vec Ideal S5000x1 .f32)
    (r : Fin 5000) (o : Fin 128) :
    k0_pay1 x0 x1 x2 (ix2 r o) = (∑ k : Fin 128, x0 (ix2 r k) * x1 (ix2 o k)) * x2 (ix2 r (0 : Fin 1)) := by
  unfold k0_pay1
  rw [mulf_apply, shapeCast_self, Cert.LibColumnLayout.broadcastTo_a1_ab_apply]
  refine congrArg (· * x2 (ix2 r (0 : Fin 1))) ?_
  refine (Cert.LibDot.matmul_zero_apply mm rfl rfl mm_l0 mm_l1 mm_r0 mm_r1 none _ _ r o).trans ?_
  refine Finset.sum_congr rfl fun k _ => ?_
  rw [truncf_apply, transpose_ix2_apply, truncf_apply]

/-- The printed index maps over the grid: the row windows are at block row t, column block 0; the weights' window is fixed. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable {F : FTy → Type} [FloatOps F]
variable (V : (c : Dev nD) → (b : Ref sig .tc) → Buf (Elt F) ((c : Thread nD τ).loc b))

/-- The x block at point t holds rows 5000 t … of x. -/
theorem iblk_x (c : Dev nD) (t : Fin cfg0.N) (r : Fin 5000) (k : Fin 128) (n : Fin 100000) (hn : n.val = t.val * 5000 + r.val) :
    (iblk0 V c 0 t : Vec F S5000x128 .f32) (ix2 r k) = (V c main_arg0 : S100000x128.Idx → Elt F .f32) (ix2 n k) := by
  obtain ⟨e0, e1, -⟩ := idx_facts t
  unfold iblk0
  rw [View.read_apply]
  show (V c main_arg0 : S100000x128.Idx → Elt F .f32) _ = _
  refine congrArg _ (funext fun a => Fin.ext ?_)
  match a with
  | ⟨0, _⟩ => show win0_0.index t (0 : Fin 2) * 5000 + 1 * r.val = n.val; rw [e0, hn]; omega
  | ⟨1, _⟩ => show win0_0.index t (1 : Fin 2) * 128 + 1 * k.val = k.val; rw [e1]; omega

/-- The weights' block at every point is W. -/
theorem iblk_w (c : Dev nD) (t : Fin cfg0.N) (o : Fin 128) (k : Fin 128) :
    (iblk0 V c 1 t : Vec F S128x128 .f32) (ix2 o k) = (V c main_arg2 : S128x128.Idx → Elt F .f32) (ix2 o k) := by
  obtain ⟨-, -, e0, e1, -⟩ := idx_facts t
  unfold iblk0
  rw [View.read_apply]
  show (V c main_arg2 : S128x128.Idx → Elt F .f32) _ = _
  refine congrArg _ (funext fun a => Fin.ext ?_)
  match a with
  | ⟨0, _⟩ => show win0_1.index t (0 : Fin 2) * 128 + 1 * o.val = o.val; rw [e0]; omega
  | ⟨1, _⟩ => show win0_1.index t (1 : Fin 2) * 128 + 1 * k.val = k.val; rw [e1]; omega

/-- The factor column's block at point t holds the same rows of the column. -/
theorem iblk_dv (c : Dev nD) (t : Fin cfg0.N) (r : Fin 5000) (n : Fin 100000) (hn : n.val = t.val * 5000 + r.val) :
    (iblk0 V c 2 t : Vec F S5000x1 .f32) (ix2 r (0 : Fin 1)) = (V c main_v15 : S100000x1.Idx → Elt F .f32) (ix2 n (0 : Fin 1)) := by
  obtain ⟨-, -, -, -, e0, e1, -⟩ := idx_facts t
  unfold iblk0
  rw [View.read_apply]
  show (V c main_v15 : S100000x1.Idx → Elt F .f32) _ = _
  refine congrArg _ (funext fun a => Fin.ext ?_)
  match a with
  | ⟨0, _⟩ => show win0_2.index t (0 : Fin 2) * 5000 + 1 * r.val = n.val; rw [e0, hn]; omega
  | ⟨1, _⟩ => show win0_2.index t (1 : Fin 2) * 1 + 1 * 0 = 0; rw [e1]

end

variable (V : (c : Dev nD) → (b : Ref sig .tc) → Buf (Elt Ideal) ((c : Thread nD τ).loc b))

/-- The array the region leaves: `scaledLinear` of x, W and the factor column as entered. -/
abbrev result (c : Dev nD) : S100000x128.Idx → EReal :=
  scaledLinear (V c main_arg0) (V c main_arg2) (V c main_v15)

/-- What point t writes back is block t of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨r, o, rfl⟩ : ∃ (r : Fin 5000) (o : Fin 128), j = ix2 r o := ⟨j 0, j 1, eq_ix2 j⟩
  obtain ⟨-, -, -, -, -, -, e0, e1⟩ := idx_facts t
  have ht : t.val < 20 := by have h := t.isLt; have hN : cfg0.N = 20 := N_0; omega
  have hlt : t.val * 5000 + r.val < 100000 := by have := r.isLt; omega
  have hemb : ((cfg0.win 3).blk t).view.emb (ix2 r o) = (ix2 (⟨t.val * 5000 + r.val, hlt⟩ : Fin 100000) o : S100000x128.Idx) := by
    funext a; apply Fin.ext
    match a with
    | ⟨0, _⟩ => show win0_3.index t (0 : Fin 2) * 5000 + 1 * r.val = t.val * 5000 + r.val; rw [e0]; omega
    | ⟨1, _⟩ => show win0_3.index t (1 : Fin 2) * 128 + 1 * o.val = o.val; rw [e1]; omega
  rw [View.read_apply, hemb]
  show k0_pay1 (iblk0 V c 0 t) (iblk0 V c 1 t) (iblk0 V c 2 t) (ix2 r o) = _
  refine (pay_apply (iblk0 V c 0 t) (iblk0 V c 1 t) (iblk0 V c 2 t) r o).trans ?_
  rw [iblk_dv V c t r ⟨t.val * 5000 + r.val, hlt⟩ rfl]
  show _ = scaledLinearAt (V c main_arg0) (V c main_arg2) (V c main_v15) ⟨t.val * 5000 + r.val, hlt⟩ o
  unfold scaledLinearAt
  refine congrArg (· * _) (Finset.sum_congr rfl fun k _ => ?_)
  rw [iblk_x V c t r k ⟨t.val * 5000 + r.val, hlt⟩ rfl, iblk_w V c t o k]

/-- An index of the result is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every row is in the block of the point its number divided by 5000 names. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx_facts t
  have htv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, htv]; omega
  | ⟨1, _⟩ => show win0_3.index t (1 : Fin 2) * 128 ≤ (i 1).val ∧ (i 1).val < win0_3.index t (1 : Fin 2) * 128 + 128; rw [e1]; omega

/-- After the region its output array is `result`. -/
theorem final (c : Dev nD) : (dat0 V c).arrAt 3 cfg0.N = result V c :=
  (dat0 V c).arrAt_eq_of_cover 3 (result V c) (fun t _ => flushed_eq V c t) cover

end Cert.KernelIdeal.Region0

end
-- ==== Proof.Region1.lean ====
/-
  The second pipelined region's output array. At grid point t (20 points) the region stages rows 5000 t … 5000 t + 4999
  of the aggregate, the same rows of the column of row factors, and the one row of the bias; the body stores
  max (agg * factor + bias) 0 over the block, and the block is written back to the same rows of the result. So block t of
  the result is block t of ONE array, `scaleBiasRelu` of the three arrays as the region finds them, and the twenty blocks
  tile the result: after the region the result array IS that array.
-/
import proofs.«155059_j7945689497634_2_alg».proof.Proof.Gen.KernelIdeal.Frame
import proofs.«155059_j7945689497634_2_alg».proof.Proof.GcnSpec
import proofs.«155059_j7945689497634_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at `(r, o)` of the block: the aggregate times the row's factor, plus the bias, rectified. -/
theorem pay_apply (x0 : Vec Ideal S5000x128 .f32) (x1 : Vec Ideal S5000x1 .f32) (x2 : Vec Ideal S1x128 .f32)
    (r : Fin 5000) (o : Fin 128) :
    k1_pay1 x0 x1 x2 (ix2 r o) = max (x0 (ix2 r o) * x1 (ix2 r (0 : Fin 1)) + x2 (ix2 (0 : Fin 1) o)) 0 := by
  unfold k1_pay1
  rw [maximumf_apply, addf_apply, mulf_apply, shapeCast_self, shapeCast_self, shapeCast_self,
    Cert.LibColumnLayout.broadcastTo_a1_ab_apply, broadcastTo_1b_ab_apply, broadcast_apply]
  show max _ (Ideal.ofBits .f32 0x00000000#32) = _
  rw [Ideal.ofBits_zero_f32]

/-- The printed index maps over the grid: every row window is at block row t, column block 0; the bias window is fixed. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable {F : FTy → Type} [FloatOps F]
variable (V : (c : Dev nD) → (b : Ref sig .tc) → Buf (Elt F) ((c : Thread nD τ).loc b))

/-- The aggregate's block at point t holds rows 5000 t … of the aggregate. -/
theorem iblk_agg (c : Dev nD) (t : Fin cfg1.N) (r : Fin 5000) (o : Fin 128) (n : Fin 100000) (hn : n.val = t.val * 5000 + r.val) :
    (iblk1 V c 0 t : Vec F S5000x128 .f32) (ix2 r o) = (V c main_v26 : S100000x128.Idx → Elt F .f32) (ix2 n o) := by
  obtain ⟨e0, e1, -⟩ := idx_facts t
  unfold iblk1
  rw [View.read_apply]
  show (V c main_v26 : S100000x128.Idx → Elt F .f32) _ = _
  refine congrArg _ (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * o.val = o.val; rw [e1]; omega

/-- The factor column's block at point t holds the same rows of the column. -/
theorem iblk_dv (c : Dev nD) (t : Fin cfg1.N) (r : Fin 5000) (n : Fin 100000) (hn : n.val = t.val * 5000 + r.val) :
    (iblk1 V c 1 t : Vec F S5000x1 .f32) (ix2 r (0 : Fin 1)) = (V c main_v15 : S100000x1.Idx → Elt F .f32) (ix2 n (0 : Fin 1)) := by
  obtain ⟨-, -, e0, e1, -⟩ := idx_facts t
  unfold iblk1
  rw [View.read_apply]
  show (V c main_v15 : S100000x1.Idx → Elt F .f32) _ = _
  refine congrArg _ (funext fun a => Fin.ext ?_)
  match a with
  | ⟨0, _⟩ => show win1_1.index t (0 : Fin 2) * 5000 + 1 * r.val = n.val; rw [e0, hn]; omega
  | ⟨1, _⟩ => show win1_1.index t (1 : Fin 2) * 1 + 1 * 0 = 0; rw [e1]

/-- The bias's block at every point is the bias row. -/
theorem iblk_bias (c : Dev nD) (t : Fin cfg1.N) (o : Fin 128) :
    (iblk1 V c 2 t : Vec F S1x128 .f32) (ix2 (0 : Fin 1) o) = (V c main_v27 : S1x128.Idx → Elt F .f32) (ix2 (0 : Fin 1) o) := by
  obtain ⟨-, -, -, -, e0, e1, -⟩ := idx_facts t
  unfold iblk1
  rw [View.read_apply]
  show (V c main_v27 : S1x128.Idx → Elt F .f32) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * o.val = o.val; rw [e1]; omega

end

variable (V : (c : Dev nD) → (b : Ref sig .tc) → Buf (Elt Ideal) ((c : Thread nD τ).loc b))

/-- The array the region leaves: `scaleBiasRelu` of the aggregate, the factor column and the bias row as entered. -/
abbrev result (c : Dev nD) : S100000x128.Idx → EReal :=
  scaleBiasRelu (V c main_v26) (V c main_v15) (V c main_v27)

/-- What point t writes back is block t of `result`. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext j
  obtain ⟨r, o, rfl⟩ : ∃ (r : Fin 5000) (o : Fin 128), j = ix2 r o := ⟨j 0, j 1, eq_ix2 j⟩
  obtain ⟨-, -, -, -, -, -, e0, e1⟩ := idx_facts t
  have ht : t.val < 20 := by have h := t.isLt; have hN : cfg1.N = 20 := N_1; omega
  have hlt : t.val * 5000 + r.val < 100000 := by have := r.isLt; omega
  have hemb : ((cfg1.win 3).blk t).view.emb (ix2 r o) = (ix2 (⟨t.val * 5000 + r.val, hlt⟩ : Fin 100000) o : S100000x128.Idx) := by
    funext a; apply Fin.ext
    match a with
    | ⟨0, _⟩ => show win1_3.index t (0 : Fin 2) * 5000 + 1 * r.val = t.val * 5000 + r.val; rw [e0]; omega
    | ⟨1, _⟩ => show win1_3.index t (1 : Fin 2) * 128 + 1 * o.val = o.val; rw [e1]; omega
  rw [View.read_apply, hemb]
  show k1_pay1 (iblk1 V c 0 t) (iblk1 V c 1 t) (iblk1 V c 2 t) (ix2 r o) = _
  refine (pay_apply (iblk1 V c 0 t) (iblk1 V c 1 t) (iblk1 V c 2 t) r o).trans ?_
  rw [iblk_agg V c t r o ⟨t.val * 5000 + r.val, hlt⟩ rfl, iblk_dv V c t r ⟨t.val * 5000 + r.val, hlt⟩ rfl, iblk_bias V c t o]
  rfl

/-- An index of the result is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v28).slice (win1_3.rect t)).set ↔ _
  rw [View.set_slice_whole, Rect.mem_set_unit]
  exact Iff.rfl

/-- Every row is in the block of the point its number divided by 5000 names. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, e0, e1⟩ := idx_facts t
  have htv : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e0, htv]; omega
  | ⟨1, _⟩ => show win1_3.index t (1 : Fin 2) * 128 ≤ (i 1).val ∧ (i 1).val < win1_3.index t (1 : Fin 2) * 128 + 128; rw [e1]; omega

/-- After the region its output array is `result`. -/
theorem final (c : Dev nD) : (dat1 V c).arrAt 3 cfg1.N = result V c :=
  (dat1 V c).arrAt_eq_of_cover 3 (result V c) (fun t _ => flushed_eq V c t) cover

end Cert.KernelIdeal.Region1

end
-- ==== Proof.KernelValue.lean ====
/-
  The kernel program's result as one function of its four arguments, at the extended reals.
  From the edge list the host builds the source and destination columns (each edge's end, then one self loop per node),
  the degree of every node (a scatter-add of ones by destination), its guarded reciprocal square root `dinv`
  (rsqrt deg where deg > 0, else 0) and that as a column. The first region leaves `scaledLinear x W dinv`; the host gathers
  its rows at the sources and scatter-adds them by destination into the aggregate; the second region leaves
  `scaleBiasRelu aggregate dinv b`. The buffer contents at the program's boundaries are folds of the host operations over
  the launch memory; each buffer the value depends on is read out of its fold here, one boundary at a time.
-/
import proofs.«155059_j7945689497634_2_alg».proof.Proof.KernelRun
import proofs.«155059_j7945689497634_2_alg».proof.Proof.Region0
import proofs.«155059_j7945689497634_2_alg».proof.Proof.Region1
import Idealize.ShloMosaic.Lib.StableHlo.Run

set_option maxRecDepth 16384

noncomputable section

namespace Cert.KernelIdeal.KernelValue

open Cert.KernelIdeal Cert.KernelIdeal.Gen Cert.GcnSpec
open Idealize.ShloMosaic Idealize.ShloMosaic.TcCoe Idealize.SL.Sem Idealize.ShloMosaic.StableHlo

/-! ## The host's values before the first region, as functions of the edge list (at any float instance) -/

section Host
variable {F : FTy → Type} [FloatOps F]

/-- Row `r` of the edge list followed by every node's own number. -/
def ends (r : Fin 2 → Nat) (hs : S2x640000.Slices r S1x640000) (x1 : IVec S2x640000 32) : IVec S740000 32 :=
  concatenate S740000 0 [⟨S640000, (shapeCast _ (extractStridedSlice S1x640000 r x1 hs) shapeCasts_S1x640000_S640000)⟩, ⟨S100000, (iotaInDim S100000 32 0)⟩] concatenates_S640000_S100000_S740000_d0

/-- The sources: row 0 of the edge list, then the self loops. -/
def srcIds (x1 : IVec S2x640000 32) : IVec S740000 32 := ends ![0, 0] slices_S2x640000_S1x640000_0_0 x1
/-- The destinations: row 1 of the edge list, then the self loops. -/
def dstIds (x1 : IVec S2x640000 32) : IVec S740000 32 := ends ![1, 0] slices_S2x640000_S1x640000_1_0 x1

/-- The destinations as a column of scatter indices. -/
def dstCol (x1 : IVec S2x640000 32) : IVec S740000x1 32 := broadcastInDim S740000x1 ![0] bcast_S740000_S740000x1_0 (dstIds x1)

/-- The sources with a negative number counted from the end, as a column of start indices. -/
def srcCol (x1 : IVec S2x640000 32) : IVec S740000x1 32 :=
  broadcastInDim S740000x1 ![0] bcast_S740000_S740000x1_0
    (select (cmpi .slt (srcIds x1) (broadcastInDim S740000 ![] bcast_S_S740000 (constantI S_ 32 0#32)))
      (addi (srcIds x1) (broadcastInDim S740000 ![] bcast_S_S740000 (constantI S_ 32 100000#32))) (srcIds x1))

/-- Every node's degree: ones added up by destination. -/
def deg (x1 : IVec S2x640000 32) : FVec F S100000 .f32 :=
  Host.scatterAdd scatter_S100000_S740000x1_S740000_n_0_0_1 (broadcastInDim S100000 ![] bcast_S_S100000 (constant S_ .f32 0x00000000#32))
    (dstCol x1) (broadcastInDim S740000 ![] bcast_S_S740000 (constant S_ .f32 0x3F800000#32))

/-- The guarded reciprocal square root of the degree. -/
def dinv (x1 : IVec S2x640000 32) : FVec F S100000 .f32 :=
  select (cmpf .ogt (deg (F := F) x1) (broadcastInDim S100000 ![] bcast_S_S100000 (constant S_ .f32 0x00000000#32)))
    (Host.rsqrt (deg (F := F) x1)) (broadcastInDim S100000 ![] bcast_S_S100000 (id (constant S_ .f32 0x00000000#32)))

/-- The same as a column. -/
def dinvCol (x1 : IVec S2x640000 32) : FVec F S100000x1 .f32 := shapeCast S100000x1 (dinv (F := F) x1) shapeCasts_S100000_S100000x1

/-! ### The buffers at the first region's entry -/

variable (m : (ℓ : Loc nD τ sig) → Buf (Elt F) ℓ) (ρ : Dev nD → PrngReg)

theorem W3_arg0 (c : Dev nD) : W3 m ρ c (Proc.devRef .tc main_arg0) = m ((c.tc : Thread nD τ).loc main_arg0) := by
  dsimp only [W3, W2, W1, W0, hostOps0, hostOps0_1, hostOps0_2]
  after_results <;> rfl
theorem W3_arg2 (c : Dev nD) : W3 m ρ c (Proc.devRef .tc main_arg2) = m ((c.tc : Thread nD τ).loc main_arg2) := by
  dsimp only [W3, W2, W1, W0, hostOps0, hostOps0_1, hostOps0_2]
  after_results <;> rfl
theorem W3_arg3 (c : Dev nD) : W3 m ρ c (Proc.devRef .tc main_arg3) = m ((c.tc : Thread nD τ).loc main_arg3) := by
  dsimp only [W3, W2, W1, W0, hostOps0, hostOps0_1, hostOps0_2]
  after_results <;> rfl
theorem W3_src (c : Dev nD) : W3 m ρ c (Proc.devRef .tc main_v3) = srcIds (m ((c.tc : Thread nD τ).loc main_arg1)) := by
  dsimp only [W3, W2, W1, W0, hostOps0, hostOps0_1, hostOps0_2]
  after_results <;> rfl
theorem W3_dst (c : Dev nD) : W3 m ρ c (Proc.devRef .tc main_v6) = dstIds (m ((c.tc : Thread nD τ).loc main_arg1)) := by
  dsimp only [W3, W2, W1, W0, hostOps0, hostOps0_1, hostOps0_2]
  after_results <;> rfl
theorem W3_dinvCol (c : Dev nD) : W3 m ρ c (Proc.devRef .tc main_v15) = dinvCol (F := F) (m ((c.tc : Thread nD τ).loc main_arg1)) := by
  dsimp only [W3, W2, W1, W0, hostOps0, hostOps0_1, hostOps0_2]
  after_results <;> (unfold dinvCol dinv deg dstCol dstIds ends; rfl)

end Host

/-! ## The aggregate and the result, at the extended reals -/

/-- The aggregate: the rows of the scaled linear map at the sources, added up by destination. -/
def agg (x0 : FVec Ideal S100000x128 .f32) (x1 : IVec S2x640000 32) (x2 : FVec Ideal S128x128 .f32) : FVec Ideal S100000x128 .f32 :=
  Host.scatterAdd scatter_S100000x128_S740000x1_S740000x128_1_0_0_1
    (broadcastInDim S100000x128 ![] bcast_S_S100000x128 (constant S_ .f32 0x00000000#32)) (dstCol x1)
    (Host.gather gather_S100000x128_S740000x1_S740000x128_1_0_n_n_0_1_1128 (scaledLinear x0 x2 (dinvCol (F := Ideal) x1)) (srcCol x1))

/-- The program's result. -/
def out (x0 : FVec Ideal S100000x128 .f32) (x1 : IVec S2x640000 32) (x2 : FVec Ideal S128x128 .f32) (x3 : FVec Ideal S128 .f32) :
    FVec Ideal S100000x128 .f32 :=
  scaleBiasRelu (agg x0 x1 x2) (dinvCol (F := Ideal) x1) (shapeCast S1x128 x3 shapeCasts_S128_S1x128)

variable (m : (ℓ : Loc nD τ sig) → Buf (Elt Ideal) ℓ) (ρ : Dev nD → PrngReg)

/-! ### After the first region -/

/-- The first region's output array: the scaled linear map of the arguments. -/
theorem W4_hs (c : Dev nD) : W4 m ρ c (Proc.devRef .tc main_v16)
    = scaledLinear (m ((c.tc : Thread nD τ).loc main_arg0)) (m ((c.tc : Thread nD τ).loc main_arg2)) (dinvCol (F := Ideal) (m ((c.tc : Thread nD τ).loc main_arg1))) := by
  refine (W4_arr m ρ c 3).trans ?_
  rw [Region0.final (V3 m ρ) c]
  show scaledLinear (W3 m ρ c (Proc.devRef .tc main_arg0)) (W3 m ρ c (Proc.devRef .tc main_arg2)) (W3 m ρ c (Proc.devRef .tc main_v15)) = _
  rw [W3_arg0, W3_arg2, W3_dinvCol]

theorem W4_src (c : Dev nD) : W4 m ρ c (Proc.devRef .tc main_v3) = srcIds (m ((c.tc : Thread nD τ).loc main_arg1)) :=
  (W4_of_ne m ρ c main_v3 (by decide)).trans (W3_src m ρ c)
theorem W4_dst (c : Dev nD) : W4 m ρ c (Proc.devRef .tc main_v6) = dstIds (m ((c.tc : Thread nD τ).loc main_arg1)) :=
  (W4_of_ne m ρ c main_v6 (by decide)).trans (W3_dst m ρ c)
theorem W4_arg3 (c : Dev nD) : W4 m ρ c (Proc.devRef .tc main_arg3) = m ((c.tc : Thread nD τ).loc main_arg3) :=
  (W4_of_ne m ρ c main_arg3 (by decide)).trans (W3_arg3 m ρ c)
/-- The factor column is an input of the first region: it leaves the region as it entered. -/
theorem W4_dinvCol (c : Dev nD) : W4 m ρ c (Proc.devRef .tc main_v15) = dinvCol (F := Ideal) (m ((c.tc : Thread nD τ).loc main_arg1)) :=
  ((W4_arr m ρ c 2).trans (((dat0 (V3 m ρ) c).arrAt_in 2 rfl _).trans (A_eq0 (V3 m ρ) c 2))).trans (W3_dinvCol m ρ c)

/-! ### At the second region's entry -/

theorem W5_agg (c : Dev nD) : W5 m ρ c (Proc.devRef .tc main_v26)
    = agg (m ((c.tc : Thread nD τ).loc main_arg0)) (m ((c.tc : Thread nD τ).loc main_arg1)) (m ((c.tc : Thread nD τ).loc main_arg2)) := by
  dsimp only [W5, hostOps1]
  after_results
  rw [W4_hs, W4_src, W4_dst]
  unfold agg dstCol srcCol
  rfl
theorem W5_dinvCol (c : Dev nD) : W5 m ρ c (Proc.devRef .tc main_v15) = dinvCol (F := Ideal) (m ((c.tc : Thread nD τ).loc main_arg1)) := by
  dsimp only [W5, hostOps1]
  after_results
  exact W4_dinvCol m ρ c
theorem W5_bias (c : Dev nD) : W5 m ρ c (Proc.devRef .tc main_v27) = shapeCast S1x128 (m ((c.tc : Thread nD τ).loc main_arg3)) shapeCasts_S128_S1x128 := by
  dsimp only [W5, hostOps1]
  after_results
  rw [W4_arg3]
  rfl

/-! ### The result and the run -/

/-- The second region's output array, the program's result: `out` of the arguments. -/
theorem result_eq (c : Dev nD) : W6 m ρ c (Proc.devRef .tc main_v28)
    = out (m ((c.tc : Thread nD τ).loc main_arg0)) (m ((c.tc : Thread nD τ).loc main_arg1)) (m ((c.tc : Thread nD τ).loc main_arg2)) (m ((c.tc : Thread nD τ).loc main_arg3)) := by
  refine (W6_arr m ρ c 3).trans ?_
  rw [Region1.final (V5 m ρ) c]
  show scaleBiasRelu (W5 m ρ c (Proc.devRef .tc main_v26)) (W5 m ρ c (Proc.devRef .tc main_v15)) (W5 m ρ c (Proc.devRef .tc main_v27)) = _
  rw [W5_agg, W5_dinvCol, W5_bias]
  rfl

/-- Every weakly fair execution of the kernel program terminates with the result array at `out` of the arguments and the
    arguments unchanged. -/
theorem run : θ_run defs (onTc (τ := τ) (main (F := Ideal))) ⟨m, fun _ => 0, ρ⟩ (fun r => ∀ c : Dev nD,
      r.2.mem ((c.tc : Thread nD τ).loc main_v28) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.GcnRun.run_W6 m ρ)

end Cert.KernelIdeal.KernelValue

end
-- ==== Proof.LibNonnegScale.lean ====
/-
  Scaling a finite sum of extended reals by a factor that is a real number >= 0. On the extended reals multiplication does
  not distribute over addition in general (at +inf + -inf the two sides differ for a negative factor), but it does for a
  factor c with 0 <= c < +inf: (y + z) * c = y * c + z * c whatever y and z are. Hence (sum_j f j) * c = sum_j (f j * c) over
  any finite index set, with no finiteness asked of the summands. Also here: the guarded reciprocal square root
  "rsqrt x where x > 0, else 0" is such a factor for EVERY extended real x — rsqrt of a positive real is a positive real,
  rsqrt +inf = 0, and the guard sends everything else to 0.
  Library imports only.
-/
import Idealize.ShloMosaic.PureOps.Ideal
import Idealize.ShloMosaic.PureOps.Ideal.Laws

namespace Cert.LibNonnegScale

open Idealize.ShloMosaic
open scoped BigOperators

/-- A finite sum times a real factor >= 0 is the sum of the scaled terms, whatever the terms are. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  refine Finset.induction_on s ?_ ?_
  · rw [Finset.sum_empty, Finset.sum_empty, zero_mul]
  · intro a s ha ih
    rw [Finset.sum_insert ha, Finset.sum_insert ha, EReal.right_distrib_of_nonneg_of_ne_top h0 ht, ih]

/-- A product of two real factors >= 0 is one. -/
theorem mul_nonneg_ne_top {a b : EReal} (ha0 : 0 ≤ a) (hat : a ≠ ⊤) (hb0 : 0 ≤ b) (hbt : b ≠ ⊤) :
    0 ≤ a * b ∧ a * b ≠ ⊤ := by
  refine ⟨mul_nonneg ha0 hb0, ?_⟩
  lift a to ℝ using ⟨hat, ne_bot_of_le_ne_bot EReal.zero_ne_bot ha0⟩
  lift b to ℝ using ⟨hbt, ne_bot_of_le_ne_bot EReal.zero_ne_bot hb0⟩
  rw [← EReal.coe_mul]
  exact EReal.coe_ne_top _

/-- The guarded reciprocal square root — rsqrt x where x > 0, else 0 — is a real number >= 0 at every extended real. -/
theorem guarded_rsqrt (x z : EReal) (hz : z = 0) :
    0 ≤ Scalar.select (Ideal.cmp .ogt x z) (Ideal.rsqrt x) z ∧ Scalar.select (Ideal.cmp .ogt x z) (Ideal.rsqrt x) z ≠ ⊤ := by
  subst hz
  unfold Scalar.select Ideal.cmp
  induction x using EReal.rec with
  | bot =>
    have h : ¬ ((0 : EReal) < ⊥) := not_lt_bot
    simp only [h, decide_false, BitVec.ofBool_false]
    rw [if_neg (by decide)]
    exact ⟨le_rfl, EReal.zero_ne_top⟩
  | top =>
    have h : ((0 : EReal) < ⊤) := EReal.zero_lt_top
    simp only [h, decide_true, BitVec.ofBool_true, if_true]
    show 0 ≤ (0 : EReal) ∧ (0 : EReal) ≠ ⊤
    exact ⟨le_rfl, EReal.zero_ne_top⟩
  | coe r =>
    by_cases hr : 0 < r
    · have h : ((0 : EReal) < (r : EReal)) := by exact_mod_cast hr
      simp only [h, decide_true, BitVec.ofBool_true, if_true]
      show 0 ≤ Ideal.rsqrt (r : EReal) ∧ Ideal.rsqrt (r : EReal) ≠ ⊤
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      refine ⟨?_, EReal.coe_ne_top _⟩
      exact_mod_cast (inv_nonneg.mpr (Real.sqrt_nonneg r))
    · have h : ¬ ((0 : EReal) < (r : EReal)) := by exact_mod_cast hr
      simp only [h, decide_false, BitVec.ofBool_false]
      rw [if_neg (by decide)]
      exact ⟨le_rfl, EReal.zero_ne_top⟩

end Cert.LibNonnegScale
-- ==== Proof.LibGatherEntry.lean ====
/-
  An entry lookup read at an index. `v[idx]` for a vector of `N` entries and `R` positions lowers to a gather whose start
  indices are the positions as an `R × 1` array: no offset axis, operand axis 0 collapsed, start index map `[0]`, index
  vector axis 1, slice size 1. Result element `e` is the vector's entry at the start index `idx[e, 0]`, read as a signed number
  and clamped into `[0, N − 1]`.
  Library imports only.
-/
import Idealize.ShloMosaic.Lib.ValueIdx

namespace Cert.LibGatherEntry

open Idealize.ShloMosaic Idealize.ShloMosaic.ValueIdx

variable {α : Type}

/-- Those dimension numbers for a vector `[N]`, start indices `[R, 1]` and result `[R]`. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- On the vector's one axis the operand index is the clamped start index: the axis is collapsed, there is no batching. -/
theorem operand_entry {N R w : Nat} (wf : GatherDims.WF ⟨1, ![N]⟩ ⟨2, ![R, 1]⟩ ⟨1, ![R]⟩ [] [0] [] [0] [] 1 ![1])
    (idx : IVec ⟨2, ![R, 1]⟩ w) (e : Fin R) :
    (entryDims N R wf).start (ix1 e) idx 0 + (entryDims N R wf).batchCoord (ix1 e) 0
        + (entryDims N R wf).offCoord (ix1 e) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N R wf).startIndexMap from List.mem_singleton.mpr rfl)]
  have hsi : (entryDims N R wf).siIdx (ix1 e) ⟨List.idxOf (0 : Fin 1) (entryDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The gather read at `e`: the entry the start index `idx[e, 0]` names, read signed and clamped into `[0, N − 1]`. -/
theorem gather_entry_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (entryDims N R wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ => exact operand_entry wf idx e

end Cert.LibGatherEntry
-- ==== Proof.LibGatherRow.lean ====
/-
  A row lookup read at an index. `table[idx]` for a table of `N` rows of `D` columns and `R` row numbers lowers to a
  gather whose start indices are the row numbers as an `R × 1` array: offset axis 1, operand axis 0 collapsed, start
  index map `[0]`, index vector axis 1, slice sizes `[1, D]`. Result element `(e, c)` is the table's element in
  column `c` of the row that the start index `idx[e, 0]` names, read as a signed number and clamped into `[0, N − 1]`.
-/
import Idealize.ShloMosaic.Lib.ValueIdx

namespace Cert.GatherRow

open Idealize.ShloMosaic Idealize.ShloMosaic.ValueIdx

variable {α : Type}

/-- Those dimension numbers for a table `[N, D]`, start indices `[R, 1]` and result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (e : Fin R) (c : Fin D)

/-- On the table's row axis the operand index is the clamped start index: the axis is collapsed and there is no
    batching. -/
theorem operand_row :
    (rowDims N D R wf).start (ix2 e c) idx 0 + (rowDims N D R wf).batchCoord (ix2 e c) 0
        + (rowDims N D R wf).offCoord (ix2 e c) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 e c) ⟨List.idxOf (0 : Fin 2) (rowDims N D R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the table's column axis the operand index is the result's column: the start index map does not name the axis,
    and it is the one offset axis. -/
theorem operand_col :
    (rowDims N D R wf).start (ix2 e c) idx 1 + (rowDims N D R wf).batchCoord (ix2 e c) 1
        + (rowDims N D R wf).offCoord (ix2 e c) 1
      = c.val := by
  have h1 : (1 : Fin 2) ∉ (rowDims N D R wf).startIndexMap := by
    show (1 : Fin 2) ∉ [(0 : Fin 2)]
    decide
  have hk : (1 : Fin 2) ∈ (rowDims N D R wf).sKept :=
    ((GatherDims.mem_sKept _ _).mpr ⟨by show (1 : Fin 2) ∉ [(0 : Fin 2)]; decide, List.not_mem_nil⟩)
  rw [GatherDims.batchCoord_eq_zero _ _ _ List.not_mem_nil]
  unfold GatherDims.start GatherDims.offCoord
  rw [dif_neg h1, dif_pos hk]
  simp only [Nat.zero_add]
  rfl

end

/-- The gather read at `(e, c)`: column `c` of the row the start index `idx[e, 0]` names, read signed and clamped
    into `[0, N − 1]`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (c : Fin D) :
    Host.gather (rowDims N D R wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact operand_row wf idx e c
  | ⟨1, _⟩ => exact operand_col wf idx e c

/-- A start index whose unsigned value is below the table's height names that row: read signed it is its unsigned
    value, and the clamp leaves it. -/
theorem clamp_of_lt {N : Nat} (hN : N ≤ 2 ^ 31) (v : BitVec 32) (h : v.toNat < N) :
    min v.toInt.toNat (N - 1) = v.toNat := by
  have e : v.toInt = (v.toNat : Int) := by
    rw [BitVec.toInt_eq_toNat_cond]
    split
    · rfl
    · omega
  rw [e, Int.toNat_natCast]
  omega

end Cert.GatherRow
-- ==== Proof.RefRead.lean ====
/-
  The reference program read at an index, where the bridge to the kernel needs it. With `dinv` the guarded reciprocal
  square root of the degree (stage 14), `h = x · Wᵀ` (stage 31), the normalised source column (stage 37) and the raw
  destination column (stage 43):
    * `dinv` is a real number >= 0 at every node, whatever the edge list holds;
    * `h` at (n, o) is the sum over k of x(n, k) * W(o, k);
    * the message of edge e in column o (stage 41) is h at the edge's source row, times dinv at the source, times dinv at
      the edge's normalised destination;
    * an edge whose raw destination, read signed, is a node number d has normalised destination d: the number is not
      negative, so it is not counted from the end, and it is below the node count, so the clamp leaves it.
-/
import proofs.«155059_j7945689497634_2_alg».proof.Proof.RefReadP
import proofs.«155059_j7945689497634_2_alg».proof.Proof.LibNonnegScale
import proofs.«155059_j7945689497634_2_alg».proof.Proof.LibGatherEntry
import proofs.«155059_j7945689497634_2_alg».proof.Proof.LibGatherRow
import Idealize.ShloMosaic.Lib.ValueIdx
import Idealize.ShloMosaic.PureOps.Ideal.Laws

set_option maxRecDepth 16384

noncomputable section

namespace Cert.ReferenceIdeal.GcnRead

open Cert.ReferenceIdeal Cert.ReferenceIdeal.ReadP
open Idealize.ShloMosaic Idealize.ShloMosaic.ValueIdx
open scoped BigOperators

variable (x0 : FVec Ideal S100000x128 .f32) (x1 : IVec S2x640000 32) (x2 : FVec Ideal S128x128 .f32)

/-- The row a start index names among 100000: read signed, clamped into [0, 99999]. -/
abbrev rowOf (v : BitVec 32) : Fin 100000 := ⟨min v.toInt.toNat (100000 - 1), by omega⟩

/-- `dinv` is a real number >= 0 at every node. -/
theorem dinv_nonneg (d : Fin 100000) :
    0 ≤ val_main_v14 (F := Ideal) x1 (ix1 d) ∧ val_main_v14 (F := Ideal) x1 (ix1 d) ≠ ⊤ := by
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 d) = X
  exact Cert.LibNonnegScale.guarded_rsqrt X (Ideal.ofBits .f32 0x00000000#32) Ideal.ofBits_zero_f32

/-- `h = x · Wᵀ` at (n, o). -/
theorem h_apply (n : Fin 100000) (o : Fin 128) :
    val_main_v31 (F := Ideal) x0 x2 (ix2 n o) = ∑ k : Fin 128, x0 (ix2 n k) * x2 (ix2 o k) := by
  rw [val_main_v31_apply]
  refine Finset.sum_congr rfl fun k _ => ?_
  rw [val_main_v30_apply]
  have hl : lidx_main_v31 (ix2 n o) k = ix2 n k := funext fun a => match a with | ⟨0, _⟩ => rfl | ⟨1, _⟩ => rfl
  have hr : idx_main_v30 (ridx_main_v31 (ix2 n o) k) = ix2 o k := funext fun a => match a with | ⟨0, _⟩ => rfl | ⟨1, _⟩ => rfl
  rw [hl, hr]

/-- `dinv` gathered at the sources: the entry at the edge's source row. -/
theorem src_entry (e : Fin 740000) :
    val_main_v21 (F := Ideal) x1 (ix1 e) = val_main_v14 (F := Ideal) x1 (ix1 (rowOf (val_main_v37 (F := Ideal) x1 (ix2 e (0 : Fin 1))))) := by
  unfold val_main_v21
  rw [show val_main_v20 (F := Ideal) x1 = val_main_v37 (F := Ideal) x1 from rfl]
  exact Cert.LibGatherEntry.gather_entry_apply (by decide) _ _ _ e

/-- A signed word that is not negative is not counted from the end. -/
theorem select_of_nonneg (v a : BitVec 32) (h : 0 ≤ v.toInt) : Scalar.select (IntOp.cmpi .slt v 0#32) a v = v := by
  have hs : v.slt 0#32 = false := by
    show decide (v.toInt < (0#32 : BitVec 32).toInt) = false
    rw [decide_eq_false_iff_not, BitVec.toInt_zero]
    omega
  unfold Scalar.select IntOp.cmpi
  simp only [hs, BitVec.ofBool_false]
  rw [if_neg (by decide)]

/-- An edge whose raw destination, read signed, is the node number `d`: `dinv` gathered at the normalised destinations is
    `dinv` at `d`. -/
theorem dst_entry_of_land (e : Fin 740000) (d : Fin 100000)
    (h : (val_main_v43 (F := Ideal) x1 (ix2 e (0 : Fin 1))).toInt = (d.val : Int)) :
    val_main_v28 (F := Ideal) x1 (ix1 e) = val_main_v14 (F := Ideal) x1 (ix1 d) := by
  have hv43 : val_main_v43 (F := Ideal) x1 (ix2 e (0 : Fin 1)) = val_main_v6 (F := Ideal) x1 (ix1 e) := by
    rw [val_main_v43_apply]
    exact congrArg _ (funext fun a => match a with | ⟨0, _⟩ => rfl)
  rw [hv43] at h
  have hv27 : val_main_v27 (F := Ideal) x1 (ix2 e (0 : Fin 1)) = val_main_v6 (F := Ideal) x1 (ix1 e) := by
    rw [val_main_v27_apply]
    have hi : idx_main_v27 (ix2 e (0 : Fin 1)) = ix1 e := funext fun a => match a with | ⟨0, _⟩ => rfl
    rw [hi, val_main_v26_apply, val_main_v23_apply, val_main_v22_apply, val_main_c_4_apply]
    exact select_of_nonneg _ _ (by rw [h]; exact Int.natCast_nonneg _)
  unfold val_main_v28
  refine (Cert.LibGatherEntry.gather_entry_apply (by decide) _ _ _ e).trans ?_
  have hrow : ∀ p : min (val_main_v27 (F := Ideal) x1 (ix2 e (0 : Fin 1))).toInt.toNat (100000 - 1) < 100000,
      (⟨min (val_main_v27 (F := Ideal) x1 (ix2 e (0 : Fin 1))).toInt.toNat (100000 - 1), p⟩ : Fin 100000) = d := fun p =>
    Fin.ext (by
      show min (val_main_v27 (F := Ideal) x1 (ix2 e (0 : Fin 1))).toInt.toNat (100000 - 1) = d.val
      rw [hv27, h, Int.toNat_natCast]
      have := d.isLt
      omega)
  rw [hrow]

/-- The message of edge `e` in column `o`: `h` at the source row, times the two `dinv` factors. -/
theorem message_apply (e : Fin 740000) (o : Fin 128) :
    val_main_v41 (F := Ideal) x0 x1 x2 (ix2 e o)
      = (∑ k : Fin 128, x0 (ix2 (rowOf (val_main_v37 (F := Ideal) x1 (ix2 e (0 : Fin 1)))) k) * x2 (ix2 o k))
          * (val_main_v21 (F := Ideal) x1 (ix1 e) * val_main_v28 (F := Ideal) x1 (ix1 e)) := by
  have hi : idx_main_v39 (idx_main_v40 (ix2 e o)) = ix1 e := funext fun a => match a with | ⟨0, _⟩ => rfl
  have hv38 : val_main_v38 (F := Ideal) x0 x1 x2 (ix2 e o)
      = ∑ k : Fin 128, x0 (ix2 (rowOf (val_main_v37 (F := Ideal) x1 (ix2 e (0 : Fin 1)))) k) * x2 (ix2 o k) := by
    unfold val_main_v38
    exact (Cert.GatherRow.gather_row_apply (by decide) _ _ _ e o).trans (h_apply x0 x2 _ o)
  rw [val_main_v41_apply, val_main_v40_apply, val_main_v39_apply, hi, val_main_v29_apply, hv38]
  generalize val_main_v21 (F := Ideal) x1 (ix1 e) = a
  generalize val_main_v28 (F := Ideal) x1 (ix1 e) = b
  rfl

end Cert.ReferenceIdeal.GcnRead

end
-- ==== Proof.LibScatterAddScale.lean ====
/-
  A scatter-add into zeros, scaled. On the extended reals the host's accumulating scatter is, at each operand index, the
  operand's entry plus the sum of the updates that land there. Into an operand of zeros that is just the sum; and a sum
  times a factor c that is a real number >= 0 is the sum of the scaled updates, whatever the updates are (no finiteness
  asked of them). So if every update U j that lands at i satisfies U j * c = U' j, the scatter-add of U at i, times c, is
  the scatter-add of U' at i. Stated over ANY shapes and dimension numbers.
  Library imports only (and the sum law of LibNonnegScale).
-/
import Idealize.ShloMosaic.PureOps.Ideal
import Idealize.ShloMosaic.PureOps.Ideal.Laws
import proofs.«155059_j7945689497634_2_alg».proof.Proof.LibNonnegScale

namespace Cert.LibScatterAddScale

open Idealize.ShloMosaic
open scoped BigOperators

/-- The scatter-add of `U` into zeros at `i`, times a real factor `c >= 0`, is the scatter-add of `U'` at `i`, when each
    update landing at `i` scales to its counterpart. -/
theorem scatterAdd_zero_mul {s si u : Shape} {w : Nat} (d : ScatterDims s si u) (x : FVec Ideal s .f32) (idx : IVec si w)
    (U U' : FVec Ideal u .f32) (i : s.Idx) (hx : x i = 0) {c : EReal} (h0 : 0 ≤ c) (ht : c ≠ ⊤)
    (h : ∀ j, d.resultIdx? j idx = some i → U j * c = U' j) :
    Host.scatterAdd d x idx U i * c = Host.scatterAdd d x idx U' i := by
  show (x i + ∑ j ∈ Finset.univ.filter (fun j => d.resultIdx? j idx = some i), U j) * c
      = x i + ∑ j ∈ Finset.univ.filter (fun j => d.resultIdx? j idx = some i), U' j
  rw [hx, zero_add, zero_add, Cert.LibNonnegScale.sum_mul_of_nonneg_ne_top _ _ h0 ht]
  exact Finset.sum_congr rfl fun j hj => h j (Finset.mem_filter.mp hj).2

end Cert.LibScatterAddScale
-- ==== Proof.LibScatterRows.lean ====
/-
  A row scatter's target read off its start index. `segment_sum(v, ids)` for `R` update rows of `D` columns added into an
  operand of `N` rows lowers to a scatter whose scatter indices are the row numbers as an `R × 1` array: update window axis 1,
  inserted window axis 0, the scatter-dims-to-operand-dims map `[0]`, index vector axis 1. Update element `(e, c)` is aimed
  at row `ids[e, 0]` read as a signed number (not clamped: a row outside the operand drops the update), column `c`. So an
  update that lands on row `n` has start index `n`.
  Library imports only.
-/
import Idealize.ShloMosaic.PureOps.ShapeOps
import Idealize.ShloMosaic.Lib.ValueIdx

namespace Cert.LibScatterRows

open Idealize.ShloMosaic Idealize.ShloMosaic.ValueIdx

/-- Those dimension numbers for an operand `[N, D]`, scatter indices `[R, 1]` and updates `[R, D]`. -/
abbrev rowDims (N D R : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

variable {N D R w : Nat} (wf : ScatterDims.WF ⟨2, ![N, D]⟩ ⟨2, ![R, 1]⟩ ⟨2, ![R, D]⟩ [1] [0] [0] 1)
  (idx : IVec ⟨2, ![R, 1]⟩ w) (e : Fin R) (c : Fin D)

/-- On the operand's row axis the window starts at the start index `idx[e, 0]`, read signed. -/
theorem start_row : (rowDims N D R wf).start (ix2 e c) idx 0 = (idx (ix2 e (0 : Fin 1))).toInt := by
  unfold ScatterDims.start
  rw [dif_pos (show (0 : Fin 2) ∈ (rowDims N D R wf).scatterDimsToOperandDims from List.mem_singleton.mpr rfl)]
  have hsi : (rowDims N D R wf).siIdx (ix2 e c) ⟨List.idxOf (0 : Fin 2) (rowDims N D R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is an inserted window axis: the window coordinate there is 0. -/
theorem window_row : (rowDims N D R wf).window (ix2 e c) 0 = 0 := by
  unfold ScatterDims.window
  rw [dif_neg]
  show (0 : Fin 2) ∉ (⟨2, ![N, D]⟩ : Shape).kept [(0 : Fin 2)]
  simp [Shape.kept, List.mem_filter]

/-- An update element that lands on row `n` has start index `n`. -/
theorem row_of_resultIdx? (n : Fin N) (q : Fin D)
    (h : (rowDims N D R wf).resultIdx? (ix2 e c) idx = some (ix2 n q)) :
    (idx (ix2 e (0 : Fin 1))).toInt = (n.val : Int) := by
  unfold ScatterDims.resultIdx? at h
  split at h
  · rename_i hb
    have e0 := congrArg (fun k => (k (0 : Fin 2)).val) (Option.some.inj h)
    dsimp only at e0
    have h0 := (hb 0).1
    rw [start_row, window_row] at h0 e0
    have : ((idx (ix2 e (0 : Fin 1))).toInt + ((0 : Nat) : Int)).toNat = n.val := e0
    rw [Nat.cast_zero, Int.add_zero] at this h0
    rw [← this]
    exact (Int.toNat_of_nonneg h0).symm
  · exact absurd h (by simp)

end Cert.LibScatterRows
-- ==== Proof.Bridge.lean ====
/-
  The kernel's result and the reference's result are one function of the arguments, on the extended reals.
  Write dinv for the guarded reciprocal square root of the degree and h = x · Wᵀ. For a node d and column o, over the
  edges e whose destination is d (the updates that land on row d; s(e) is the edge's source row):
    kernel     max ((sum_e  h(s e, o) * dinv(s e)) * dinv d  +  b o) 0
    reference  max ((sum_e  h(s e, o) * (dinv(s e) * dinv(dst' e)))  +  b o) 0
  where dst' e, the destination as the gather reads it, is d for every edge that lands on d. The two sums run over the
  same set of updates. dinv d is a real number >= 0, so it may be taken inside the sum whatever the summands are
  (infinite ones included: no finiteness of x or W is used), and the products re-associate.
-/
import proofs.«155059_j7945689497634_2_alg».proof.Proof.KernelValue
import proofs.«155059_j7945689497634_2_alg».proof.Proof.RefRead
import proofs.«155059_j7945689497634_2_alg».proof.Proof.LibScatterAddScale
import proofs.«155059_j7945689497634_2_alg».proof.Proof.LibScatterRows
import proofs.«155059_j7945689497634_2_alg».proof.Proof.LibColumnLayout
import Idealize.ShloMosaic.Lib.ValueLayout

set_option maxRecDepth 16384

noncomputable section

namespace Cert.Bridge

open Idealize.ShloMosaic Idealize.ShloMosaic.ValueIdx Cert.GcnSpec
open Cert.ReferenceIdeal Cert.ReferenceIdeal.ReadP Cert.ReferenceIdeal.GcnRead
open Cert.KernelIdeal.KernelValue (out agg dinvCol dinv)
open scoped BigOperators

variable (x0 : FVec Ideal S100000x128 .f32) (x1 : IVec S2x640000 32) (x2 : FVec Ideal S128x128 .f32) (x3 : FVec Ideal S128 .f32)

/-- The kernel's aggregate, in the reference's names: the same scatter-add, by the same destination column, into the same
    zeros, of the rows gathered at the same source column. -/
theorem agg_eq : agg x0 x1 x2
    = Host.scatterAdd (F := Ideal) scatter_S100000x128_S740000x1_S740000x128_1_0_0_1 (val_main_v42 (F := Ideal)) (val_main_v43 (F := Ideal) x1)
        (Host.gather gather_S100000x128_S740000x1_S740000x128_1_0_n_n_0_1_1128 (scaledLinear x0 x2 (dinvCol (F := Ideal) x1)) (val_main_v37 (F := Ideal) x1)) := rfl

/-- The kernel's factor column at row d is the reference's dinv at d. -/
theorem dinvCol_apply (d : Fin 100000) : dinvCol (F := Ideal) x1 (ix2 d (0 : Fin 1)) = val_main_v14 (F := Ideal) x1 (ix1 d) := by
  unfold Cert.KernelIdeal.KernelValue.dinvCol
  rw [Cert.LibColumnLayout.shapeCast_a_a1_apply]
  rfl

/-- A gathered row of the kernel's scaled linear map: h at the source row, times dinv at the source. -/
theorem gathered_apply (e : Fin 740000) (o : Fin 128) :
    Host.gather gather_S100000x128_S740000x1_S740000x128_1_0_n_n_0_1_1128 (scaledLinear x0 x2 (dinvCol (F := Ideal) x1)) (val_main_v37 (F := Ideal) x1) (ix2 e o)
      = (∑ k : Fin 128, x0 (ix2 (rowOf (val_main_v37 (F := Ideal) x1 (ix2 e (0 : Fin 1)))) k) * x2 (ix2 o k))
          * val_main_v14 (F := Ideal) x1 (ix1 (rowOf (val_main_v37 (F := Ideal) x1 (ix2 e (0 : Fin 1))))) := by
  refine (Cert.GatherRow.gather_row_apply (by decide) _ _ _ e o).trans ?_
  rw [scaledLinear_ix2]
  unfold scaledLinearAt
  rw [dinvCol_apply]

/-- An update that lands on row d: the kernel's gathered row times dinv d is the reference's message. -/
theorem landing (d : Fin 100000) (o : Fin 128) (j : S740000x128.Idx)
    (hj : scatter_S100000x128_S740000x1_S740000x128_1_0_0_1.resultIdx? j (val_main_v43 (F := Ideal) x1) = some (ix2 d o)) :
    Host.gather gather_S100000x128_S740000x1_S740000x128_1_0_n_n_0_1_1128 (scaledLinear x0 x2 (dinvCol (F := Ideal) x1)) (val_main_v37 (F := Ideal) x1) j
        * val_main_v14 (F := Ideal) x1 (ix1 d)
      = val_main_v41 (F := Ideal) x0 x1 x2 j := by
  obtain ⟨e, q, rfl⟩ : ∃ (e : Fin 740000) (q : Fin 128), j = ix2 e q := ⟨j 0, j 1, eq_ix2 j⟩
  have hland : (val_main_v43 (F := Ideal) x1 (ix2 e (0 : Fin 1))).toInt = (d.val : Int) :=
    Cert.LibScatterRows.row_of_resultIdx? _ (val_main_v43 (F := Ideal) x1) e q d o hj
  rw [gathered_apply, message_apply, src_entry, dst_entry_of_land x1 e d hland]
  exact mul_assoc _ _ _

/-- The two results are one function. -/
theorem out_eq : out x0 x1 x2 x3 = val_main_v48 (F := Ideal) x0 x1 x2 x3 := by
  funext i
  obtain ⟨d, o, rfl⟩ : ∃ (d : Fin 100000) (o : Fin 128), i = ix2 d o := ⟨i 0, i 1, eq_ix2 i⟩
  obtain ⟨h0, ht⟩ := dinv_nonneg x1 d
  have hb : val_main_v46 (F := Ideal) x3 (ix2 d o) = x3 (ix1 o) := by
    rw [val_main_v46_apply, val_main_v45_apply]
    exact congrArg x3 (funext fun a => match a with | ⟨0, _⟩ => rfl)
  have hz : val_main_call1_v0 (F := Ideal) (ix2 d o) = 0 := by
    rw [val_main_call1_v0_apply, val_main_call1_cst_apply]
    exact Ideal.ofBits_zero_f32
  have hx : val_main_v42 (F := Ideal) (ix2 d o) = 0 := by
    rw [val_main_v42_apply, val_main_cst_8_apply]
    exact Ideal.ofBits_zero_f32
  have hs := Cert.LibScatterAddScale.scatterAdd_zero_mul scatter_S100000x128_S740000x1_S740000x128_1_0_0_1
    (val_main_v42 (F := Ideal)) (val_main_v43 (F := Ideal) x1)
    (Host.gather gather_S100000x128_S740000x1_S740000x128_1_0_n_n_0_1_1128 (scaledLinear x0 x2 (dinvCol (F := Ideal) x1)) (val_main_v37 (F := Ideal) x1))
    (val_main_v41 (F := Ideal) x0 x1 x2) (ix2 d o) hx h0 ht (fun j hj => landing x0 x1 x2 d o j hj)
  rw [val_main_v48_apply, val_main_v47_apply, hb, hz]
  unfold Cert.KernelIdeal.KernelValue.out
  rw [scaleBiasRelu_ix2]
  unfold scaleBiasReluAt
  rw [dinvCol_apply, shapeCast_a_1a_apply, agg_eq, hs]
  unfold val_main_v44
  rfl

end Cert.Bridge

end
-- ==== Proof.lean ====
/- A graph convolution layer on 100000 nodes, 640000 edges plus one self loop per node, 128 features:
     out[d] = relu( sum over edges e into d of (x Wᵀ)[src e] * dinv[src e] * dinv[d]  +  b ),   dinv = rsqrt(deg) where deg > 0, else 0.
   The reference forms the per-edge messages h[src] * (dinv[src] * dinv[dst]) and scatter-adds them by destination. The kernel
   program scales the rows of h = x Wᵀ by dinv inside a first pipelined region (the matrix product on the matrix unit,
   5000 rows at a time), gathers the scaled rows at the sources and scatter-adds them by destination on the host, and
   applies the second dinv factor, the bias and the rectifier in a second pipelined region. On the extended reals the two
   agree because dinv[d] is a real number >= 0 and so distributes over the sum of the messages into d, whatever they are.

   The two kernel programs' frame claims are the generated frames; the reference has no kernel, and its frame is its run
   (RefRunP.lean) with the result dropped; the idealization
   rewrote no operation, so `preserves` is trivial; `algebraic` puts the kernel program's run (KernelValue.lean: both
   regions' output arrays as whole-array functions, the host stretches read through) beside the reference's run and
   identifies the two result functions index by index (Bridge.lean). -/
import proofs.«155059_j7945689497634_2_alg».proof.Defs
import proofs.«155059_j7945689497634_2_alg».proof.Proof.Gen.Kernel
import proofs.«155059_j7945689497634_2_alg».proof.Proof.Gen.Kernel.Skeleton
import proofs.«155059_j7945689497634_2_alg».proof.Proof.Gen.Kernel.Launch
import proofs.«155059_j7945689497634_2_alg».proof.Proof.Gen.Kernel.Points
import proofs.«155059_j7945689497634_2_alg».proof.Proof.Gen.Kernel.Frame
import proofs.«155059_j7945689497634_2_alg».proof.Proof.Gen.KernelIdeal
import proofs.«155059_j7945689497634_2_alg».proof.Proof.Gen.KernelIdeal.Skeleton
import proofs.«155059_j7945689497634_2_alg».proof.Proof.Gen.KernelIdeal.Launch
import proofs.«155059_j7945689497634_2_alg».proof.Proof.Gen.KernelIdeal.Points
import proofs.«155059_j7945689497634_2_alg».proof.Proof.Gen.KernelIdeal.Frame
import proofs.«155059_j7945689497634_2_alg».proof.Proof.Gen.ReferenceIdeal
import proofs.«155059_j7945689497634_2_alg».proof.Proof.Gen.Pre_finite_inputs
import proofs.«155059_j7945689497634_2_alg».proof.Proof.RefRunP
import proofs.«155059_j7945689497634_2_alg».proof.Proof.RefReadP
import proofs.«155059_j7945689497634_2_alg».proof.Proof.KernelValue
import proofs.«155059_j7945689497634_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs run; the kernel program's result array ends at `out` of its arguments, the reference's at its composed
    term of arguments that agree with them, and the two are one function (`Cert.Bridge.out_eq`). -/
theorem algebraic : Cert.algebraic_KernelIdeal_ReferenceIdeal := by
  intro m ρ m' ρ' _ hagree
  refine ⟨fun c => Cert.KernelIdeal.KernelValue.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v48_eq, (hagree c).1, (hagree c).2.1, (hagree c).2.2.1, (hagree c).2.2.2]
  exact (Cert.Bridge.out_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
